-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) (main_arg3 : IVec S4096x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S1x4096, .f32⟩
  | .hbm, ⟨5, _⟩ => ⟨S4096x4096, .bf16⟩
  | .hbm, ⟨6, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1024x256, .bf16⟩
  | .local _ .vmem, ⟨5, _⟩ => ⟨S1024x256, .bf16⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x4096.size a
  hwx0_2 : ∀ i : grid0.Coords, EltTy.bits .bf16 = 32 ∨ (Rect.block (s := S4096x4096) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.Spec.lean ====
/-
  The masked linear layer as ONE function of its four argument arrays, over the extended reals.

  For a row r of x (8192 rows of 4096 entries), a row q of the weight matrix (4096 rows of 4096 entries) with its
  row of integer mask entries, and a bias vector of 4096 entries, the result at (r, q) is

      y (r, q) = ( Σ k < 4096,  x (r, k) · ( w (q, k) · mask (q, k) ) )  +  bias q,

  the mask entry read as the integer it is. Nothing here needs the entries to be finite: the only law used below is
  that a finite sum in a commutative additive monoid may be taken chunk by chunk, which holds with both infinities
  present.
-/
import Idealize.ShloMosaic.PureOps.Ideal
import Idealize.ShloMosaic.Lib.ValueIdx
import proofs.«118116_j15487652069503_2_alg».proof.Proof.LibSumChunks

noncomputable section

open scoped BigOperators

namespace Cert.MaskedLinear

open Idealize.ShloMosaic Idealize.ShloMosaic.ValueIdx

/-- The shape of x and of the result: 8192 rows, 4096 columns. -/
abbrev SX : Shape := ⟨2, ![8192, 4096]⟩
/-- The shape of the weight matrix and of the mask: 4096 output rows, 4096 input columns. -/
abbrev SW : Shape := ⟨2, ![4096, 4096]⟩
/-- The shape of the bias vector. -/
abbrev SB : Shape := ⟨1, ![4096]⟩

/-- One product of the contraction: x at (r, k) times the masked weight at (q, k). -/
def term (x : SX.Idx → EReal) (w : SW.Idx → EReal) (mk : SW.Idx → BitVec 32) (r : Fin 8192) (q k : Fin 4096) : EReal :=
  x (ix2 r k) * (w (ix2 q k) * (((mk (ix2 q k)).toInt : ℝ) : EReal))

/-- The layer: row r of x against the masked row q of the weights, plus the bias at q. -/
def Y (x : SX.Idx → EReal) (w : SW.Idx → EReal) (b : SB.Idx → EReal) (mk : SW.Idx → BitVec 32) : SX.Idx → EReal := fun i =>
  (∑ k : Fin 4096, term x w mk (i 0) (i 1) k) + b (ix1 (i 1))

/-- Position l of chunk s, of 16 chunks of 256, is a position below 4096. -/
theorem pos_lt (s : Fin 16) (l : Fin 256) : l.val + 256 * s.val < 4096 := by
  have := s.isLt; have := l.isLt; omega

/-- A sum over 4096 positions taken in 16 consecutive chunks of 256, started from zero: when g s is the sum of
    chunk s for each of the 16 chunks, zero plus the first 16 values of g is the whole sum. -/
theorem chunked (f : Fin 4096 → EReal) (g : ℕ → EReal)
    (hg : ∀ s : Fin 16, g s.val = ∑ l : Fin 256, f ⟨l.val + 256 * s.val, pos_lt s l⟩) :
    0 + ∑ s ∈ Finset.range 16, g s = ∑ k : Fin 4096, f k := by
  rw [zero_add, Finset.sum_range, Cert.Lib.SumChunks.sum_chunks 16 256 rfl f]
  exact Finset.sum_congr rfl fun s _ => hg s

end Cert.MaskedLinear

end
-- ==== Proof.RefValue.lean ====
/-
  The reference's result, read index by index, is the masked linear layer Y of the argument arrays.

  The reference converts the mask to floats (at the ideal instance: the integer itself), multiplies it into the
  weights entry by entry, contracts x's columns against the masked weights' columns, and adds the bias vector laid
  along every row. Read at (r, q) through the generated one-operation-at-a-time lemmas this is
  Σ k, x (r, k) · (w (q, k) · mask (q, k)) + bias q: the definition of Y, once the generated index functions are
  identified with the coordinates.
-/
import proofs.«118116_j15487652069503_2_alg».proof.Proof.Gen.ReferenceIdeal.Read
import proofs.«118116_j15487652069503_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.MaskedLinear

/-- The left operand of the contraction is read at row r of x, column k. -/
theorem lidx_eq (i : S8192x4096.Idx) (k : Fin 4096) : lidx_main_v2 i k = ix2 (i 0) k :=
  funext fun a => Fin.ext (by match a with | ⟨0, _⟩ => rfl | ⟨1, _⟩ => rfl)

/-- The right operand of the contraction is read at row q of the masked weights, column k. -/
theorem ridx_eq (i : S8192x4096.Idx) (k : Fin 4096) : ridx_main_v2 i k = ix2 (i 1) k :=
  funext fun a => Fin.ext (by match a with | ⟨0, _⟩ => rfl | ⟨1, _⟩ => rfl)

/-- The bias laid along the rows is read at the result's column. -/
theorem bidx_eq (i : S8192x4096.Idx) : idx_main_v3 (idx_main_v4 i) = ix1 (i 1) :=
  funext fun a => Fin.ext (by match a with | ⟨0, _⟩ => rfl)

/-- The reference's last stage is Y of the four arguments. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x4096, .i32⟩ : BufTy).Contents (Elt Ideal)) :
    val_main_v5 (F := Ideal) x0 x1 x2 x3 = Y x0 x1 x2 x3 := by
  funext i
  rw [val_main_v5_apply, val_main_v2_apply, val_main_v4_apply, val_main_v3_apply, bidx_eq]
  simp only [lidx_eq, ridx_eq, val_main_v1_apply, val_main_v0_apply, Ideal.addf_def, Ideal.mulf_def]
  rfl

end Cert.ReferenceIdeal.RefValue

end
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.Body.lean ====
/-
  What the kernel body stores, read at one entry of the 2048 × 1024 output block, at the ideal instance.

  At a grid point the body holds a 2048 × 256 piece of x, the matching 1024 × 256 pieces of the weights and of the
  mask (already converted to floats), a 1 × 1024 piece of the bias, and the output block. Its three stores are:

    * the zero block (first point of a run of 16);
    * the block plus the product of the x piece with the transposed masked-weight piece: at (p, o) the block's
      entry plus Σ l < 256, x (p, l) · (w (o, l) · mask (o, l)) — the change of float format before the matrix unit is
      the identity on the extended reals, and the matrix unit starts from the zero accumulator;
    * the block plus the bias piece laid along every row (last point of a run): at (p, o) the entry plus bias (0, o).
-/
import proofs.«118116_j15487652069503_2_alg».proof.Proof.Gen.KernelIdeal.Skeleton
import proofs.«118116_j15487652069503_2_alg».proof.Proof.LibMatmulRows
import Idealize.ShloMosaic.Lib.Pipeline.Value
import Idealize.ShloMosaic.Lib.ValueLayout

noncomputable section

open scoped BigOperators

namespace Cert.KernelIdeal.Body

open Cert.KernelIdeal Cert.KernelIdeal.Gen
open Idealize.ShloMosaic Idealize.ShloMosaic.ValueIdx

/-- The matrix unit's record: x piece [2048, 256] against weight piece [1024, 256], both contracted on their columns. -/
local notation "D" => dot_S2048x256_S1024x256_S2048x1024_1_1_0_0_n_n

/-- The left operand's row is the result's row. -/
theorem lhs0 (i : S2048x1024.Idx) (q : (D).contr.Idx) : ((D).lhsIdx i q 0).val = (i 0).val := by
  unfold DotDims.lhsIdx
  rw [dif_neg (show ¬(0 : Fin S2048x256.rank) ∈ (D).lhsBatch by decide),
    dif_pos (show (0 : Fin S2048x256.rank) ∈ (D).lhsNonContracting by decide)]
  rfl

/-- The left operand's column is the contraction position. -/
theorem lhs1 (i : S2048x1024.Idx) (q : (D).contr.Idx) : ((D).lhsIdx i q 1).val = (q ⟨0, by decide⟩).val :=
  (D).lhsIdx_val_of_single rfl i q

/-- The right operand's row is the result's column. -/
theorem rhs0 (i : S2048x1024.Idx) (q : (D).contr.Idx) : ((D).rhsIdx i q 0).val = (i 1).val := by
  unfold DotDims.rhsIdx
  rw [dif_neg (show ¬(0 : Fin S1024x256.rank) ∈ (D).rhsBatch by decide),
    dif_pos (show (0 : Fin S1024x256.rank) ∈ (D).rhsNonContracting by decide)]
  rfl

/-- The right operand's column is the contraction position. -/
theorem rhs1 (i : S2048x1024.Idx) (q : (D).contr.Idx) : ((D).rhsIdx i q 1).val = (q ⟨0, by decide⟩).val :=
  (D).rhsIdx_val_of_single rfl i q

/-- The first store of a run writes zero everywhere. -/
theorem zero_at (i : S2048x1024.Idx) : k0_pay1 (F := Ideal) i = 0 := by
  unfold k0_pay1
  show Ideal.ofBits .f32 0x00000000#32 = 0
  exact Ideal.ofBits_zero_f32

/-- The accumulating store at (p, o): the block's entry plus row p of the x piece against the masked row o of the
    weight piece. -/
theorem step_at (x0 : Vec Ideal S2048x256 .f32) (x1 : Vec Ideal S1024x256 .f32) (x2 : Vec Ideal S1024x256 .bf16)
    (acc : Vec Ideal S2048x1024 .f32) (p : Fin 2048) (o : Fin 1024) :
    k0_pay2 x0 x1 x2 acc (ix2 p o) = acc (ix2 p o) + ∑ l : Fin 256, x0 (ix2 p l) * (x1 (ix2 o l) * x2 (ix2 o l)) := by
  unfold k0_pay2
  rw [shapeCast_self, shapeCast_self]
  exact congrArg (acc (ix2 p o) + ·)
    (MatmulRows.matmul_zero_rows (D) rfl rfl lhs0 lhs1 rhs0 rhs1 none _ _ p o)

/-- The closing store at (p, o): the block's entry plus the bias piece's entry in column o. -/
theorem bias_at (v : Vec Ideal S2048x1024 .f32) (x3 : Vec Ideal S1x1024 .f32) (p : Fin 2048) (o : Fin 1024) :
    k0_pay3 v x3 (ix2 p o) = v (ix2 p o) + x3 (ix2 (0 : Fin 1) o) := by
  unfold k0_pay3
  rw [shapeCast_self, shapeCast_self]
  exact congrArg (v (ix2 p o) + ·) (broadcastTo_1b_ab_apply x3 _ p o)

end Cert.KernelIdeal.Body

end
-- ==== Proof.Fold.lean ====
/-
  What the output block holds at the end of a run of 16 grid points, entry by entry.

  A run is the 16 consecutive points 16·R … 16·R + 15 that share an output block. The first point stores zero and then
  adds its product; each of the next fourteen adds its product to what the point before left; the last adds its
  product and then the bias row. So after the run the block's entry (p, o) is

      ( 0 + Σ s < 16, addend (16·R + s) (p, o) ) + bias block (0, o),

  where the addend of a point is row p of its x block against the masked row o of its weight block. The extended
  reals' addition is associative, so the left-to-right accumulation is that sum whatever the entries are.
-/
import proofs.«118116_j15487652069503_2_alg».proof.Proof.Gen.KernelIdeal.Value
import proofs.«118116_j15487652069503_2_alg».proof.Proof.Body

noncomputable section

open scoped BigOperators

namespace Cert.KernelIdeal.Fold

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- Row i 0 of an x piece against row i 1 of a weight piece, each weight entry first multiplied by its mask entry. -/
def rowProduct (x0 : Vec Ideal S2048x256 .f32) (x1 : Vec Ideal S1024x256 .f32) (x2 : Vec Ideal S1024x256 .bf16)
    (i : S2048x1024.Idx) : EReal :=
  ∑ l : Fin 256, x0 (ix2 (i 0) l) * (x1 (ix2 (i 1) l) * x2 (ix2 (i 1) l))

/-- The product point n adds at entry i of the output block: the row product of the point's three input blocks
    (zero past the grid, where it is never read). -/
def addend (c : Dev nD) (n : ℕ) (i : S2048x1024.Idx) : EReal :=
  if h : n < cfg0.N then rowProduct (iblk m c 0 ⟨n, h⟩) (iblk m c 1 ⟨n, h⟩) (iblk m c 2 ⟨n, h⟩) i else 0

/-- The first point of a run leaves zero plus its addend. -/
theorem reset_at (c : Dev nD) (n : ℕ) (h : n < cfg0.N) (i : S2048x1024.Idx) :
    Value.reset4 m c n h i = 0 + addend m c n i := by
  obtain ⟨p, o, rfl⟩ : ∃ (p : Fin 2048) (o : Fin 1024), i = ix2 p o := ⟨i 0, i 1, eq_ix2 i⟩
  unfold Value.reset4 addend rowProduct
  rw [dif_pos h]
  refine (Body.step_at _ _ _ _ p o).trans ?_
  rw [Body.zero_at]

/-- A middle point of a run adds its addend to what the point before left. -/
theorem step_at (c : Dev nD) (n : ℕ) (h : n < cfg0.N) (h0 : ¬n % 16 = 0) (h15 : ¬n % 16 = 15)
    (acc : Vec Ideal S2048x1024 .f32) (i : S2048x1024.Idx) :
    Value.step4 m c n h acc i = acc i + addend m c n i := by
  obtain ⟨p, o, rfl⟩ : ∃ (p : Fin 2048) (o : Fin 1024), i = ix2 p o := ⟨i 0, i 1, eq_ix2 i⟩
  unfold Value.step4 addend rowProduct
  rw [if_pos ⟨h0, h15⟩, dif_pos h]
  exact Body.step_at _ _ _ acc p o

/-- The last point of a run adds its addend and then the bias block's entry in the same column. -/
theorem last_at (c : Dev nD) (n : ℕ) (h : n < cfg0.N) (h15 : n % 16 = 15)
    (acc : Vec Ideal S2048x1024 .f32) (i : S2048x1024.Idx) :
    Value.step4 m c n h acc i
      = (acc i + addend m c n i) + (iblk m c 3 ⟨n, h⟩ : Vec Ideal S1x1024 .f32) (ix2 (0 : Fin 1) (i 1)) := by
  obtain ⟨p, o, rfl⟩ : ∃ (p : Fin 2048) (o : Fin 1024), i = ix2 p o := ⟨i 0, i 1, eq_ix2 i⟩
  unfold Value.step4 addend rowProduct
  rw [if_neg (fun hh => hh.2 h15), if_pos ⟨by omega, h15⟩, dif_pos h]
  refine (Body.bias_at _ _ p o).trans ?_
  exact congrArg (· + (iblk m c 3 ⟨n, h⟩ : Vec Ideal S1x1024 .f32) (ix2 (0 : Fin 1) o)) (Body.step_at _ _ _ acc p o)

/-- After the first fifteen points of run R the block holds zero plus their addends. -/
theorem fold14 (c : Dev nD) (R : ℕ) (h : 16 * R + 14 < cfg0.N) (i : S2048x1024.Idx) :
    Pipeline.accAt (Value.reset4 m c) (Value.step4 m c) (16 * R) 14 h i
      = 0 + ∑ s ∈ Finset.range 15, addend m c (16 * R + s) i :=
  Pipeline.accAt_add_apply (Value.reset4 m c) (Value.step4 m c) (fun _ => (0 : EReal)) (addend m c) (16 * R) 14
    (fun h i => reset_at m c _ h i)
    (fun n h acc i h1 h2 => step_at m c n h (by omega) (by omega) acc i)
    14 le_rfl h i

/-- After all sixteen points of run R the block holds zero plus the sixteen addends, plus the bias entry. -/
theorem fold15 (c : Dev nD) (R : ℕ) (h : 16 * R + 15 < cfg0.N) (i : S2048x1024.Idx) :
    Pipeline.accAt (Value.reset4 m c) (Value.step4 m c) (16 * R) 15 h i
      = (0 + ∑ s ∈ Finset.range 16, addend m c (16 * R + s) i)
        + (iblk m c 3 ⟨16 * R + 15, h⟩ : Vec Ideal S1x1024 .f32) (ix2 (0 : Fin 1) (i 1)) := by
  refine (congrFun (Pipeline.accAt_succ (Value.reset4 m c) (Value.step4 m c) (16 * R) 14 h) i).trans ?_
  refine (last_at m c (16 * R + (14 + 1)) h (by omega) _ i).trans ?_
  rw [fold14 m c R (Nat.lt_of_succ_lt h) i, Finset.sum_range_succ _ 15, ← add_assoc (0 : EReal)]

end Cert.KernelIdeal.Fold

end
-- ==== Proof.Blocks.lean ====
/-
  The input blocks of a grid point, read off the argument arrays.

  The grid is 4 × 4 × 16, the last axis innermost, so point t (t < 256) is row tile t / 64, column tile (t / 16) % 4
  and reduction chunk t % 16. At that point:

    * the x block is rows 2048 · (t / 64) … of x, columns 256 · (t % 16) …;
    * the weight block and the mask block are rows 1024 · ((t / 16) % 4) … of the weights and of the mask, the same
      columns; the mask the kernel stages was converted to floats before the launch, so its entry is the integer
      mask entry itself;
    * the bias block is entries 1024 · ((t / 16) % 4) … of the bias vector, which was laid out as one row before
      the launch.

  The relation between the printed index maps and t is decided once over the 256 points; an entry of a block sits
  at block index × block size + the coordinate inside the block.
-/
import proofs.«118116_j15487652069503_2_alg».proof.Proof.Gen.KernelIdeal.Value
import Idealize.ShloMosaic.Lib.StableHlo.Run
import Idealize.ShloMosaic.Lib.ValueLayout

noncomputable section

namespace Cert.KernelIdeal.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The printed index maps at point t, in closed form: decided over the grid's 256 points. -/
theorem idx_facts : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = t.val / 16 % 4 ∧ win0_2.index t (1 : Fin 2) = t.val % 16
    ∧ win0_3.index t (0 : Fin 2) = 0 ∧ win0_3.index t (1 : Fin 2) = t.val / 16 % 4 :=
  (by decide +kernel : ∀ t : Fin grid0.N, _)

/-- Entry (p, l) of the x block at point t is x at row 2048 · (t / 64) + p, column 256 · (t % 16) + l. -/
theorem x_blk (c : Dev nD) (t : Fin cfg0.N) (p : Fin 2048) (l : Fin 256) (r : Fin 8192) (k : Fin 4096)
    (hr : r.val = 2048 * (t.val / 64) + p.val) (hk : k.val = 256 * (t.val % 16) + l.val) :
    (iblk m c 0 t : Vec Ideal S2048x256 .f32) (ix2 p l) = m ((c : Thread nD τ).loc main_arg0) (ix2 r k) := by
  obtain ⟨e0, e1, -⟩ := idx_facts t
  unfold iblk
  rw [View.read_apply]
  show V m c main_arg0 (((cfg0.win 0).blk t).view.emb (ix2 p l)) = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * l.val = k.val; rw [e1, hk]; omega

/-- Entry (o, l) of the weight block at point t is the weight at row 1024 · ((t / 16) % 4) + o, column
    256 · (t % 16) + l. -/
theorem w_blk (c : Dev nD) (t : Fin cfg0.N) (o : Fin 1024) (l : Fin 256) (q k : Fin 4096)
    (hq : q.val = 1024 * (t.val / 16 % 4) + o.val) (hk : k.val = 256 * (t.val % 16) + l.val) :
    (iblk m c 1 t : Vec Ideal S1024x256 .f32) (ix2 o l) = m ((c : Thread nD τ).loc main_arg1) (ix2 q k) := by
  obtain ⟨-, -, e0, e1, -⟩ := idx_facts t
  unfold iblk
  rw [View.read_apply]
  show V m c main_arg1 (((cfg0.win 1).blk t).view.emb (ix2 o l)) = _
  rw [V_main_arg1]
  refine congrArg _ (funext fun a => Fin.ext ?_)
  match a with
  | ⟨0, _⟩ => show win0_1.index t (0 : Fin 2) * 1024 + 1 * o.val = q.val; rw [e0, hq]; omega
  | ⟨1, _⟩ => show win0_1.index t (1 : Fin 2) * 256 + 1 * l.val = k.val; rw [e1, hk]; omega

/-- The mask array the kernel stages: the integer mask converted to floats before the launch. -/
theorem mask_array (c : Dev nD) :
    @Eq (FVec Ideal S4096x4096 .bf16) (V m c main_v1)
      (sitofp (F := Ideal) .bf16 (m ((c : Thread nD τ).loc main_arg3) : IVec S4096x4096 32)) := by
  dsimp only [V, hostOps0]
  after_results

/-- Entry (o, l) of the mask block at point t is the integer mask entry at row 1024 · ((t / 16) % 4) + o, column
    256 · (t % 16) + l, as a real number. -/
theorem mask_blk (c : Dev nD) (t : Fin cfg0.N) (o : Fin 1024) (l : Fin 256) (q k : Fin 4096)
    (hq : q.val = 1024 * (t.val / 16 % 4) + o.val) (hk : k.val = 256 * (t.val % 16) + l.val) :
    (iblk m c 2 t : Vec Ideal S1024x256 .bf16) (ix2 o l)
      = (((m ((c : Thread nD τ).loc main_arg3) (ix2 q k)).toInt : ℝ) : EReal) := by
  obtain ⟨-, -, -, -, e0, e1, -⟩ := idx_facts t
  unfold iblk
  rw [View.read_apply]
  show V m c main_v1 (((cfg0.win 2).blk t).view.emb (ix2 o l)) = _
  rw [mask_array]
  show (((m ((c : Thread nD τ).loc main_arg3) (((cfg0.win 2).blk t).view.emb (ix2 o l))).toInt : ℝ) : EReal) = _
  refine congrArg (fun j => (((m ((c : Thread nD τ).loc main_arg3) j).toInt : ℝ) : EReal)) (funext fun a => Fin.ext ?_)
  match a with
  | ⟨0, _⟩ => show win0_2.index t (0 : Fin 2) * 1024 + 1 * o.val = q.val; rw [e0, hq]; omega
  | ⟨1, _⟩ => show win0_2.index t (1 : Fin 2) * 256 + 1 * l.val = k.val; rw [e1, hk]; omega

/-- The bias array the kernel stages: the bias vector laid out as one row before the launch. -/
theorem bias_array (c : Dev nD) :
    (V m c main_v0 : FVec Ideal S1x4096 .f32) = shapeCast S1x4096 (m ((c : Thread nD τ).loc main_arg2)) shapeCasts_S4096_S1x4096 := by
  dsimp only [V, hostOps0]
  after_results
  rfl

/-- Entry (0, o) of the bias block at point t is the bias at 1024 · ((t / 16) % 4) + o. -/
theorem bias_blk (c : Dev nD) (t : Fin cfg0.N) (o : Fin 1024) (q : Fin 4096)
    (hq : q.val = 1024 * (t.val / 16 % 4) + o.val) :
    (iblk m c 3 t : Vec Ideal S1x1024 .f32) (ix2 (0 : Fin 1) o) = m ((c : Thread nD τ).loc main_arg2) (ix1 q) := by
  obtain ⟨-, -, -, -, -, -, e0, e1⟩ := idx_facts t
  unfold iblk
  rw [View.read_apply]
  show V m c main_v0 (((cfg0.win 3).blk t).view.emb (ix2 (0 : Fin 1) o)) = _
  rw [bias_array]
  have ei : ((cfg0.win 3).blk t).view.emb (ix2 (0 : Fin 1) o) = ix2 (0 : Fin 1) q := funext fun a => Fin.ext (by
    match a with
    | ⟨0, _⟩ => show win0_3.index t (0 : Fin 2) * 1 + 1 * 0 = 0; rw [e0]
    | ⟨1, _⟩ => show win0_3.index t (1 : Fin 2) * 1024 + 1 * o.val = q.val; rw [e1, hq]; omega)
  rw [ei]
  exact shapeCast_a_1a_apply _ _ (0 : Fin 1) q

end Cert.KernelIdeal.Blocks

end
-- ==== Proof.KernelValue.lean ====
/-
  The kernel's result array is the masked linear layer Y of the argument arrays.

  The generated value leg states the array after the run entry by entry: entry (r, q) lies in the output block of row
  tile r / 2048 and column tile q / 1024, which run R = 4 · (r / 2048) + q / 1024 fills, at the place
  (r % 2048, q % 1024) of the block; the entry is that run's fold there. The fold is zero plus the sixteen points'
  addends plus the bias entry. Point 16 · R + s of the run reads columns 256 · s … 256 · s + 255 of row r of x and of
  row q of the weights and the mask, so its addend is the s-th chunk of 256 of the 4096 products of the contraction,
  and the bias entry it adds at the end is bias q. Zero plus the sixteen chunk sums is the sum of all 4096 products.
-/
import proofs.«118116_j15487652069503_2_alg».proof.Proof.Fold
import proofs.«118116_j15487652069503_2_alg».proof.Proof.Blocks
import proofs.«118116_j15487652069503_2_alg».proof.Proof.Spec

noncomputable section

open scoped BigOperators

namespace Cert.KernelIdeal.KernelValue

open Cert.KernelIdeal Cert.KernelIdeal.Gen
open Idealize.ShloMosaic Idealize.ShloMosaic.TcCoe Idealize.ShloMosaic.ValueIdx Idealize.SL.Sem
open Cert.MaskedLinear

variable (m : (ℓ : Loc nD τ sig) → Buf (Elt Ideal) ℓ)

/-- The array the kernel leaves in its result buffer is Y of x, the weights, the bias and the mask. -/
theorem G4_eq (c : Dev nD) :
    Value.G4 m c = Y (m ((c : Thread nD τ).loc main_arg0)) (m ((c : Thread nD τ).loc main_arg1))
      (m ((c : Thread nD τ).loc main_arg2)) (m ((c : Thread nD τ).loc main_arg3)) := by
  funext i
  have hi0 : (i 0).val < 8192 := (i 0).isLt
  have hi1 : (i 1).val < 4096 := (i 1).isLt
  have hN : cfg0.N = 256 := N_0
  have hR : Value.run4Of i = 4 * ((i 0).val / 2048) + (i 1).val / 1024 := by
    show 4 * ((i 0).val / 2048 - 0) + 1 * ((i 1).val / 1024 - 0) = _
    omega
  have hl0 : (Value.loc4Of i 0).val = (i 0).val % 2048 := rfl
  have hl1 : (Value.loc4Of i 1).val = (i 1).val % 1024 := rfl
  have hlt : ∀ s : Fin 16, 16 * Value.run4Of i + s.val < cfg0.N := fun s => by
    have := s.isLt; rw [hR, hN]; omega
  unfold Value.G4
  rw [dif_pos (by rw [hR, hN]; omega), Fold.fold15]
  unfold Y
  refine congrArg₂ (· + ·) ?_ ?_
  · -- zero plus the sixteen addends is the sum of the 4096 products
    refine chunked (term (m ((c : Thread nD τ).loc main_arg0)) (m ((c : Thread nD τ).loc main_arg1))
      (m ((c : Thread nD τ).loc main_arg3)) (i 0) (i 1))
      (fun s => Fold.addend m c (16 * Value.run4Of i + s) (Value.loc4Of i)) (fun s => ?_)
    have hs := s.isLt
    unfold Fold.addend
    rw [dif_pos (hlt s)]
    unfold Fold.rowProduct
    refine Finset.sum_congr rfl fun l _ => ?_
    have hl := l.isLt
    have hk : l.val + 256 * s.val = 256 * ((16 * Value.run4Of i + s.val) % 16) + l.val := by omega
    have hq : (i 1).val = 1024 * ((16 * Value.run4Of i + s.val) / 16 % 4) + (Value.loc4Of i 1).val := by
      rw [hl1, hR]; omega
    have hr : (i 0).val = 2048 * ((16 * Value.run4Of i + s.val) / 64) + (Value.loc4Of i 0).val := by
      rw [hl0, hR]; omega
    unfold term
    exact congrArg₂ (· * ·)
      (Blocks.x_blk m c ⟨_, hlt s⟩ (Value.loc4Of i 0) l (i 0) ⟨l.val + 256 * s.val, pos_lt s l⟩ hr hk)
      (congrArg₂ (· * ·)
        (Blocks.w_blk m c ⟨_, hlt s⟩ (Value.loc4Of i 1) l (i 1) ⟨l.val + 256 * s.val, pos_lt s l⟩ hq hk)
        (Blocks.mask_blk m c ⟨_, hlt s⟩ (Value.loc4Of i 1) l (i 1) ⟨l.val + 256 * s.val, pos_lt s l⟩ hq hk))
  · -- the bias entry the run's last point adds is the bias at the result's column
    refine Blocks.bias_blk m c ⟨_, _⟩ (Value.loc4Of i 1) (i 1) ?_
    show (i 1).val = 1024 * ((16 * Value.run4Of i + 15) / 16 % 4) + (Value.loc4Of i 1).val
    rw [hl1, hR]; omega

end Cert.KernelIdeal.KernelValue

end
-- ==== Proof.lean ====
/-
  A masked linear layer computed tile by tile equals the one-contraction reference, over the extended reals.

  Both programs compute, for x of 8192 rows by 4096 columns, weights and an integer mask of 4096 rows by 4096 columns
  and a bias of 4096 entries,

      y (r, q) = ( Σ k < 4096,  x (r, k) · ( w (q, k) · mask (q, k) ) )  +  bias q.

  The reference does it in one contraction. The kernel cuts the result into 4 × 4 blocks of 2048 × 1024 and the
  contraction into 16 chunks of 256: for each block it starts from zero, adds one chunk's partial product per grid
  point, and adds the bias after the last chunk. At the ideal instance the changes of float format are the identity
  and the mask's conversion to floats is the integer itself in either format, so the kernel's entry is
  ((0 + Σ over the 16 chunks of the chunk's 256 products) + bias q). Addition of extended reals is commutative and
  associative with zero neutral, so this is the reference's entry whatever the inputs hold; finiteness of the inputs is
  not used.

  The modules: Spec (the function y and the chunked-sum law), RefValue (the reference's result is y), Body (what
  the body stores, read at an entry), Blocks (the blocks of a grid point read off the arguments), Fold (a run of 16
  points as zero plus 16 addends plus the bias), KernelValue (the kernel's result is y). Each program's termination
  without fault and with its arguments unchanged comes with its run.
-/
import proofs.«118116_j15487652069503_2_alg».proof.Defs
import proofs.«118116_j15487652069503_2_alg».proof.Proof.Gen.Kernel.Frame
import proofs.«118116_j15487652069503_2_alg».proof.Proof.Gen.KernelIdeal.Value
import proofs.«118116_j15487652069503_2_alg».proof.Proof.Gen.Pre_finite_inputs
import proofs.«118116_j15487652069503_2_alg».proof.Proof.Gen.ReferenceIdeal.Run
import proofs.«118116_j15487652069503_2_alg».proof.Proof.RefValue
import proofs.«118116_j15487652069503_2_alg».proof.Proof.KernelValue
import Idealize.ShloMosaic.Adequacy
import Idealize.ShloMosaic.Init

noncomputable section

namespace Cert.Proof

open Idealize.ShloMosaic Idealize.SL.Sem

/-- The idealized kernel terminates without fault and leaves its arguments as they were: its value run, the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference likewise: its run, the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the four arguments both programs end with the same result array: each is the masked
    linear layer of the arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v5_eq _ _ _ _).trans
    ((Cert.ReferenceIdeal.RefValue.result_eq _ _ _ _).trans (Cert.KernelIdeal.KernelValue.G4_eq m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
